-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x256 .f32) (main_arg1 : IVec S2x3200000 32) (main_arg2 : FVec F S256x1 .f32) (main_arg3 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S100000x1 : Shape := ⟨2, ![100000, 1]⟩
abbrev S5000x256 : Shape := ⟨2, ![5000, 256]⟩
abbrev S5000x1 : Shape := ⟨2, ![5000, 1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩

abbrev nBuf : Space → Nat
  | .hbm => 63
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x1, .f32⟩
  | .hbm, ⟨3, _⟩ => ⟨S1, .f32⟩
  | .hbm, ⟨4, _⟩ => ⟨S100000x1, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S_, .f32⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000, .f32⟩
  | .hbm, ⟨37, _⟩ => ⟨S_, .f32⟩
  | .hbm, ⟨38, _⟩ => ⟨S100000, .f32⟩
  | .hbm, ⟨39, _⟩ => ⟨S3200000x1, .i32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000, .f32⟩
  | .hbm, ⟨52, _⟩ => ⟨S100000, .f32⟩
  | .hbm, ⟨53, _⟩ => ⟨S100000, .i1⟩
  | .hbm, ⟨54, _⟩ => ⟨S100000, .f32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S100000, .f32⟩
  | .hbm, ⟨59, _⟩ => ⟨S100000, .f32⟩
  | .hbm, ⟨60, _⟩ => ⟨S100000, .f32⟩
  | .hbm, ⟨61, _⟩ => ⟨S100000, .f32⟩
  | .hbm, ⟨62, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x1, .f32⟩
  | .local _ .vmem, ⟨3, _⟩ => ⟨S5000x1, .f32⟩
  | .local _ .vmem, ⟨4, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v34 : Ref sig .tc := ⟨.hbm, 61, rfl⟩
abbrev main_v35 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  inb_S5000x1_S5000x1_0_0 : ∀ a, (![0, 0] : Fin 2 → Nat) a + S5000x1.size a ≤ S5000x1.size a
  h_S5000x1 : 0 < S5000x1.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000x1_S100000 : S100000x1.ShapeCasts S100000
  shapeCasts_S1_S_ : S1.ShapeCasts S_
  bcast_S100000_S100000x1_0 : S100000.BroadcastsInDim S100000x1 (![0] : Fin 1 → Fin S100000x1.rank)
  dot_S5000x256_S256x1_S5000x1_1_0_0_1_n_n_wf : DotDims.WF S5000x256 S256x1 S5000x1 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)

variable [Facts₀]

def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x1 : Shape := ⟨2, ![256, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x1, .f32⟩
  | .hbm, ⟨3, _⟩ => ⟨S1, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x1, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x1, .f32⟩
  | .hbm, ⟨55, _⟩ => ⟨S3300000x1, .f32⟩
  | .hbm, ⟨56, _⟩ => ⟨S_, .f32⟩
  | .hbm, ⟨57, _⟩ => ⟨S100000x1, .f32⟩
  | .hbm, ⟨58, _⟩ => ⟨S3300000x1, .i32⟩
  | .hbm, ⟨59, _⟩ => ⟨S100000x1, .f32⟩
  | .hbm, ⟨60, _⟩ => ⟨S1x1, .f32⟩
  | .hbm, ⟨61, _⟩ => ⟨S100000x1, .f32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x1, .f32⟩
  | .hbm, ⟨67, _⟩ => ⟨S100000x1, .f32⟩
  | .hbm, ⟨68, _⟩ => ⟨S100000x1, .i1⟩
  | .hbm, ⟨69, _⟩ => ⟨S100000x1, .f32⟩
  | .hbm, ⟨70, _⟩ => ⟨S100000x1, .f32⟩
  | .hbm, ⟨71, _⟩ => ⟨S100000x1, .f32⟩
  | .hbm, ⟨72, _⟩ => ⟨S100000x1, .f32⟩
  | .hbm, ⟨73, _⟩ => ⟨S100000x1, .f32⟩
  | .hbm, ⟨74, _⟩ => ⟨S100000x1, .f32⟩
  | .hbm, ⟨75, _⟩ => ⟨S100000x1, .f32⟩
  | .hbm, ⟨76, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v46 : Ref sig .tc := ⟨.hbm, 76, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x1_S100000x1_1_0_0_1_n_n_wf : DotDims.WF S100000x256 S256x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Spec.lean ====
/-
  The algebra joining the two programs.

  One node `j` of a graph with edges `e` (source `s e`, target row number `dst e`, an integer that may name no node)
  and one self-loop per node. With `nrm` the inverse square root of the degree and `h` the projected features, the
  reference sums `nrm[src] · nrm[tgt] · h[src]` over ALL edges into `j`, the self-loop among them; the kernel sums
  `nrm[src] · h[src]` over the real edges into `j`, multiplies the sum by `nrm j`, and adds the self-loop's term
  `nrm j · nrm j · h j` by itself. The two agree because a REAL factor distributes over a finite sum of reals; over the
  extended reals it would not (`-1 · (⊤ + ⊥)`), so the law is stated for real-valued `nrm` and `h`.
  The degree is a count: the self-loop's one is added by itself in the kernel and as one more scattered update in the
  reference; that is associativity alone.
-/
import Idealize.ShloMosaic.PureOps.Ideal
import Idealize.ShloMosaic.Lib.ValueIdx

noncomputable section

open scoped BigOperators

namespace Cert.GcnLaw

open Idealize.ShloMosaic

/-- A finite sum of reals read in the extended reals is the sum of the summands read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The guarded normaliser of a degree `d`: its inverse square root where `d` exceeds `z`, else `z`. -/
def normOf (z d : EReal) : EReal := Scalar.select (Ideal.cmp .ogt d z) (Ideal.rsqrt d) z

theorem normOf_eq (z d : EReal) : normOf z d = if z < d then Ideal.rsqrt d else z := by
  unfold normOf Scalar.select Ideal.cmp
  by_cases h : z < d <;> simp [h]

/-- Guarded at zero it is a real number whatever the degree: the inverse square root of a positive real is real, that
    of `⊤` is `0`, and nothing else exceeds zero. -/
theorem normOf_zero_real (d : EReal) : ∃ r : ℝ, normOf 0 d = (r : EReal) := by
  rw [normOf_eq]
  by_cases h : (0 : EReal) < d
  · rw [if_pos h]
    induction d using EReal.rec with
    | bot => exact absurd h (by simp)
    | coe r =>
      have hr : 0 < r := by exact_mod_cast h
      exact ⟨(Real.sqrt r)⁻¹, by rw [Ideal.rsqrt_coe, if_neg (not_lt.mpr hr.le), if_neg hr.ne']⟩
    | top => exact ⟨0, by rw [Ideal.rsqrt_top]; rfl⟩
  · rw [if_neg h]; exact ⟨0, by simp⟩

/-- THE AGGREGATION LAW at node `j`: the kernel's factored form is the reference's sum over all edges and the self-loops.
    `d e` is the node the reference reads the target's normaliser at; it is `j` on every edge into `j`. -/
theorem aggregate_law {N E : ℕ} (dst : Fin E → ℤ) (s d : Fin E → Fin N) (nrm h : Fin N → EReal)
    (hn : ∀ j, ∃ r : ℝ, nrm j = (r : EReal)) (hh : ∀ j, ∃ r : ℝ, h j = (r : EReal)) (j : Fin N)
    (hd : ∀ e, dst e = (j.val : ℤ) → d e = j) :
    nrm j * (0 + ∑ e, if dst e = (j.val : ℤ) then nrm (s e) * h (s e) else 0) + nrm j * nrm j * h j
      = 0 + ((∑ e, if dst e = (j.val : ℤ) then nrm (s e) * nrm (d e) * h (s e) else 0)
              + ∑ i : Fin N, if (i.val : ℤ) = (j.val : ℤ) then nrm i * nrm i * h i else 0) := by
  classical
  choose nr hnr using hn
  choose hr hhr using hh
  obtain rfl : nrm = fun j => (nr j : EReal) := funext hnr
  obtain rfl : h = fun j => (hr j : EReal) := funext hhr
  have hloop : (∑ i : Fin N, if (i.val : ℤ) = (j.val : ℤ) then ((nr i : EReal) * nr i * hr i) else 0)
      = (nr j : EReal) * nr j * hr j := by
    have hi : ∀ i : Fin N, ((i.val : ℤ) = (j.val : ℤ)) ↔ i = j := fun i => by
      rw [Int.natCast_inj, Fin.val_inj]
    simp only [hi, Finset.sum_ite_eq', Finset.mem_univ, if_true]
  have ite_coe : ∀ (p : Prop) [Decidable p] (x : ℝ), (if p then (x : EReal) else 0) = ((if p then x else 0 : ℝ) : EReal) := by
    intro p _ x; split_ifs <;> simp
  have hL : (∑ e, if dst e = (j.val : ℤ) then (nr (s e) : EReal) * hr (s e) else 0)
      = ((∑ e, if dst e = (j.val : ℤ) then nr (s e) * hr (s e) else 0 : ℝ) : EReal) := by
    rw [coe_sum]
    refine Finset.sum_congr rfl (fun e _ => ?_)
    rw [← EReal.coe_mul, ite_coe]
  have hR : (∑ e, if dst e = (j.val : ℤ) then (nr (s e) : EReal) * nr (d e) * hr (s e) else 0)
      = ((∑ e, if dst e = (j.val : ℤ) then nr (s e) * nr j * hr (s e) else 0 : ℝ) : EReal) := by
    rw [coe_sum]
    refine Finset.sum_congr rfl (fun e _ => ?_)
    rw [← ite_coe]
    split_ifs with hc
    · rw [hd e hc, EReal.coe_mul, EReal.coe_mul]
    · rfl
  rw [hloop, hL, hR, zero_add, zero_add]
  simp only [← EReal.coe_mul, ← EReal.coe_add]
  rw [EReal.coe_eq_coe_iff, Finset.mul_sum]
  congr 1
  refine Finset.sum_congr rfl (fun e _ => ?_)
  split_ifs <;> ring

/-- THE DEGREE LAW: the self-loop's one added by itself, or as one more update among those scattered. -/
theorem degree_law {N E : ℕ} (dst : Fin E → ℤ) (one z : EReal) (j : Fin N) :
    (z + ∑ e, if dst e = (j.val : ℤ) then one else 0) + one
      = z + ((∑ e, if dst e = (j.val : ℤ) then one else 0) + ∑ i : Fin N, if (i.val : ℤ) = (j.val : ℤ) then one else 0) := by
  classical
  have hi : ∀ i : Fin N, ((i.val : ℤ) = (j.val : ℤ)) ↔ i = j := fun i => by
    rw [Int.natCast_inj, Fin.val_inj]
  simp only [hi, Finset.sum_ite_eq', Finset.mem_univ, if_true]
  rw [add_assoc]

/-- What both programs apply last, to (aggregate + bias) `v`: jax's softplus, `max v 0 + log1p (exp (-|v - 0|))`, with its
    guard for an argument that is not a number (dead over the extended reals), read at one element. `z` is the zero. -/
def epilogue (z v : Ideal .f32) : Ideal .f32 :=
  Scalar.select (FloatOps.cmpf .une (FloatOps.subf v z) (FloatOps.subf v z)) (FloatOps.addf v z)
    (FloatOps.addf (FloatOps.maximumf v z)
      (FloatOps.hostUnary .log1p (FloatOps.hostUnary .exp (FloatOps.hostNegf (FloatOps.hostAbsf (FloatOps.subf v z))))))

end Cert.GcnLaw

end
-- ==== Proof.LibIndexOps.lean ====
/-
  Gathers and accumulating scatters along the ROWS of an array, read at an index.

  `x[idx]` of an array `x` of `N` rows at a column `idx : [M, 1]` of row numbers is a `stablehlo.gather` with collapsed
  slice axis 0, start index map [0] and the index vector on axis 1: result row `e` is `x`'s row number `idx[e, 0]`, the
  word read as a SIGNED integer and CLAMPED into `[0, N − 1]` (`clampRow`).
  `x.at[idx].add(u)` is a `stablehlo.scatter` with an `add` body, inserted window axis 0 and scatter-dims-to-operand-dims
  [0]: over the extended reals row `r` of the result is row `r` of `x` plus the sum of the update rows `e` whose row
  number `idx[e, 0]`, read signed and NOT clamped, is `r`; an update whose row number lies outside `[0, N)` adds nothing.
  Both are stated for an operand that is a vector `[N]` and for one that is a column `[N, 1]`.
-/
import Idealize.ShloMosaic.Lib.ValueIdx
import Idealize.ShloMosaic.PureOps.Ideal
import Idealize.ShloMosaic.PureOps.Contract

noncomputable section

open scoped BigOperators

namespace Cert.RowIndexOps

open Idealize.ShloMosaic Idealize.ShloMosaic.ValueIdx

/-- A signed word read as a row number of an axis of `N` rows: a negative word reads `0`, one past the end `N − 1`. -/
def clampRow (N : Nat) (hN : 0 < N) {w : Nat} (v : BitVec w) : Fin N := ⟨min v.toInt.toNat (N - 1), by omega⟩

/-! ## Gather -/

/-- The dimension numbers of `x[idx]` for a vector `x : [N]` and row numbers `idx : [M, 1]`. -/
abbrev gatherVec (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gathered vector at `e` is `x` at the clamped row number `idx[e, 0]`. -/
theorem gatherVec_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gatherVec N M wf) x idx (ix1 e) = x (ix1 (clampRow N hN (idx (ix2 e 0)))) := by
  unfold Host.gather
  congr 1
  funext a
  obtain rfl : a = 0 := Subsingleton.elim _ _
  refine Fin.ext ?_
  show (gatherVec N M wf).start (ix1 e) idx 0 + (gatherVec N M wf).batchCoord (ix1 e) 0
    + (gatherVec N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N M wf).startIndexMap from List.mem_singleton.mpr rfl)]
  have hsi : (gatherVec N M wf).siIdx (ix1 e) ⟨List.idxOf (0 : Fin 1) (gatherVec N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of `x[idx]` for a column `x : [N, 1]` and row numbers `idx : [M, 1]`. -/
abbrev gatherCol (N M : Nat) (wf : GatherDims.WF ⟨2, ![N, 1]⟩ ⟨2, ![M, 1]⟩ ⟨2, ![M, 1]⟩ [1] [0] [] [0] [] 1 ![1, 1]) :
    GatherDims ⟨2, ![N, 1]⟩ ⟨2, ![M, 1]⟩ ⟨2, ![M, 1]⟩ where
  offsetDims := [1]
  collapsedSliceDims := [0]
  operandBatchingDims := []
  startIndicesBatchingDims := []
  startIndexMap := [0]
  indexVectorDim := 1
  sliceSizes := ![1, 1]
  wf := wf

/-- The gathered column at `(e, 0)` is `x` at the clamped row number `idx[e, 0]`. -/
theorem gatherCol_apply {α : Type} {N M w : Nat} (hN : 0 < N)
    (wf : GatherDims.WF ⟨2, ![N, 1]⟩ ⟨2, ![M, 1]⟩ ⟨2, ![M, 1]⟩ [1] [0] [] [0] [] 1 ![1, 1])
    (x : (⟨2, ![N, 1]⟩ : Shape).Idx → α) (idx : IVec ⟨2, ![M, 1]⟩ w) (e : Fin M) :
    Host.gather (gatherCol N M wf) x idx (ix2 e 0) = x (ix2 (clampRow N hN (idx (ix2 e 0))) 0) := by
  have hsi : (gatherCol N M wf).siIdx (ix2 e 0) ⟨List.idxOf (0 : Fin 2) (gatherCol N M wf).startIndexMap,
      List.idxOf_lt_length_iff.2 (List.mem_singleton.mpr rfl)⟩ = ix2 e 0 := by
    funext b; refine Fin.ext ?_
    match b with
    | ⟨0, _⟩ => rfl
    | ⟨1, _⟩ => rfl
  unfold Host.gather
  congr 1
  funext a
  match a with
  | ⟨0, _⟩ =>
    refine Fin.ext ?_
    show (gatherCol N M wf).start (ix2 e 0) idx 0 + (gatherCol N M wf).batchCoord (ix2 e 0) 0
      + (gatherCol N M wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherCol N M wf).startIndexMap from List.mem_singleton.mpr rfl)]
    rw [hsi]
    rfl
  | ⟨1, h⟩ =>
    -- the second axis has one row: both coordinates are 0
    refine Fin.ext ?_
    show ((gatherCol N M wf).operandIdx (ix2 e 0) idx ⟨1, h⟩).val = 0
    exact Nat.lt_one_iff.mp ((gatherCol N M wf).operandIdx (ix2 e 0) idx ⟨1, h⟩).isLt

/-! ## Accumulating scatter, over the extended reals -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- A sum over the index set of a column `[n, 1]` is the sum over its rows. -/
theorem sum_idxCol {A : Type*} [AddCommMonoid A] {n : Nat} (f : (⟨2, ![n, 1]⟩ : Shape).Idx → A) :
    ∑ i, f i = ∑ a : Fin n, f (ix2 a 0) := by
  rw [sum_idx2]
  refine Finset.sum_congr rfl fun a _ => ?_
  rw [Fin.sum_univ_one]

/-- The dimension numbers of `x.at[idx].add(u)` for a vector `x : [N]`, row numbers `idx : [M, 1]`, updates `u : [M]`. -/
abbrev scatterVec (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update row `e` of the vector scatter lands on row `r` exactly when its signed row number is `r`. -/
theorem scatterVec_resultIdx?_iff {N M w : Nat} (wf : ScatterDims.WF ⟨1, ![N]⟩ ⟨2, ![M, 1]⟩ ⟨1, ![M]⟩ [] [0] [0] 1)
    (idx : IVec ⟨2, ![M, 1]⟩ w) (e : Fin M) (r : Fin N) :
    (scatterVec N M wf).resultIdx? (ix1 e) idx = some (ix1 r) ↔ (idx (ix2 e 0)).toInt = (r.val : ℤ) := by
  have hstart : (scatterVec N M wf).start (ix1 e) idx 0 = (idx (ix2 e 0)).toInt := by
    unfold ScatterDims.start
    rw [dif_pos (show (0 : Fin 1) ∈ (scatterVec N M wf).scatterDimsToOperandDims from List.mem_singleton.mpr rfl)]
    have hsi : (scatterVec N M wf).siIdx (ix1 e) ⟨List.idxOf (0 : Fin 1) (scatterVec N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (scatterVec N M wf).window (ix1 e) 0 = 0 := by
    unfold ScatterDims.window
    rw [dif_neg]
    intro h
    have h' := (List.mem_filter.mp h).2
    simp at h'
  have hsize : ((⟨1, ![N]⟩ : Shape).size 0 : ℤ) = (N : ℤ) := rfl
  unfold ScatterDims.resultIdx?
  split
  · rename_i h
    have h0 := h 0
    rw [hstart, hwin, hsize] at h0
    rw [Option.some.injEq]
    constructor
    · intro hEq
      have h1 : ((scatterVec N M wf).start (ix1 e) idx 0 + ((scatterVec N M wf).window (ix1 e) 0 : ℕ)).toNat = r.val :=
        congrArg (fun f => (f 0).val) hEq
      rw [hstart, hwin] at h1
      omega
    · intro hEq
      funext a
      obtain rfl : a = 0 := Subsingleton.elim _ _
      refine Fin.ext ?_
      show ((scatterVec N M wf).start (ix1 e) idx 0 + ((scatterVec N M wf).window (ix1 e) 0 : ℕ)).toNat = r.val
      rw [hstart, hwin]
      omega
  · rename_i h
    constructor
    · intro hEq
      exact absurd hEq (by simp)
    · intro hEq
      exfalso
      apply h
      intro a
      obtain rfl : a = 0 := Subsingleton.elim _ _
      rw [hstart, hwin, hsize]
      have := r.isLt
      omega

/-- Row `r` of the accumulated vector: `x`'s plus the updates whose signed row number is `r`. -/
theorem scatterAddVec_apply {φ : FTy} {N M w : Nat} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (r : Fin N) :
    Host.scatterAdd (scatterVec N M wf) x idx upd (ix1 r)
      = (x (ix1 r) + ∑ e : Fin M, if (idx (ix2 e 0)).toInt = (r.val : ℤ) then upd (ix1 e) else 0 : EReal) := by
  show Ideal.hostScatterAdd (scatterVec N M wf) x idx upd (ix1 r) = _
  unfold Ideal.hostScatterAdd
  congr 1
  rw [Finset.sum_filter, sum_idx1]
  refine Finset.sum_congr rfl fun e _ => ?_
  exact if_congr (scatterVec_resultIdx?_iff wf idx e r) rfl rfl

/-- The dimension numbers of `x.at[idx].add(u)` for a column `x : [N, 1]`, row numbers `idx : [M, 1]`, updates `u : [M, 1]`. -/
abbrev scatterCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- Update row `e` of the column scatter lands on row `r` exactly when its signed row number is `r`. -/
theorem scatterCol_resultIdx?_iff {N M w : Nat}
    (wf : ScatterDims.WF ⟨2, ![N, 1]⟩ ⟨2, ![M, 1]⟩ ⟨2, ![M, 1]⟩ [1] [0] [0] 1)
    (idx : IVec ⟨2, ![M, 1]⟩ w) (e : Fin M) (r : Fin N) :
    (scatterCol N M wf).resultIdx? (ix2 e 0) idx = some (ix2 r 0) ↔ (idx (ix2 e 0)).toInt = (r.val : ℤ) := by
  have hstart0 : (scatterCol N M wf).start (ix2 e 0) idx 0 = (idx (ix2 e 0)).toInt := by
    unfold ScatterDims.start
    rw [dif_pos (show (0 : Fin 2) ∈ (scatterCol N M wf).scatterDimsToOperandDims from List.mem_singleton.mpr rfl)]
    have hsi : (scatterCol N M wf).siIdx (ix2 e 0) ⟨List.idxOf (0 : Fin 2) (scatterCol N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin0 : (scatterCol N M wf).window (ix2 e 0) 0 = 0 := by
    unfold ScatterDims.window
    rw [dif_neg]
    intro h
    have h' := (List.mem_filter.mp h).2
    simp at h'
  have hstart1 : (scatterCol N M wf).start (ix2 e 0) idx 1 = 0 := by
    unfold ScatterDims.start
    rw [dif_neg]
    intro h
    have h' : (1 : Fin 2) = 0 := List.mem_singleton.mp h
    exact absurd h' (by decide)
  have hwin1 : (scatterCol N M wf).window (ix2 e 0) 1 = 0 := by
    unfold ScatterDims.window
    split
    · rfl
    · rfl
  have hsize0 : ((⟨2, ![N, 1]⟩ : Shape).size 0 : ℤ) = (N : ℤ) := rfl
  have hsize1 : ((⟨2, ![N, 1]⟩ : Shape).size 1 : ℤ) = (1 : ℤ) := rfl
  unfold ScatterDims.resultIdx?
  split
  · rename_i h
    have h0 := h 0
    rw [hstart0, hwin0, hsize0] at h0
    rw [Option.some.injEq]
    constructor
    · intro hEq
      have h1 : ((scatterCol N M wf).start (ix2 e 0) idx 0 + ((scatterCol N M wf).window (ix2 e 0) 0 : ℕ)).toNat = r.val :=
        congrArg (fun f => (f 0).val) hEq
      rw [hstart0, hwin0] at h1
      omega
    · intro hEq
      funext a
      refine Fin.ext ?_
      match a with
      | ⟨0, _⟩ =>
        show ((scatterCol N M wf).start (ix2 e 0) idx 0 + ((scatterCol N M wf).window (ix2 e 0) 0 : ℕ)).toNat = r.val
        rw [hstart0, hwin0]
        omega
      | ⟨1, _⟩ =>
        show ((scatterCol N M wf).start (ix2 e 0) idx 1 + ((scatterCol N M wf).window (ix2 e 0) 1 : ℕ)).toNat = 0
        rw [hstart1, hwin1]
        rfl
  · rename_i h
    constructor
    · intro hEq
      exact absurd hEq (by simp)
    · intro hEq
      exfalso
      apply h
      intro a
      match a with
      | ⟨0, _⟩ =>
        show 0 ≤ (scatterCol N M wf).start (ix2 e 0) idx 0 + ((scatterCol N M wf).window (ix2 e 0) 0 : ℕ) ∧
          (scatterCol N M wf).start (ix2 e 0) idx 0 + ((scatterCol N M wf).window (ix2 e 0) 0 : ℕ)
            < ((⟨2, ![N, 1]⟩ : Shape).size 0 : ℤ)
        rw [hstart0, hwin0, hsize0]
        have := r.isLt
        omega
      | ⟨1, _⟩ =>
        show 0 ≤ (scatterCol N M wf).start (ix2 e 0) idx 1 + ((scatterCol N M wf).window (ix2 e 0) 1 : ℕ) ∧
          (scatterCol N M wf).start (ix2 e 0) idx 1 + ((scatterCol N M wf).window (ix2 e 0) 1 : ℕ)
            < ((⟨2, ![N, 1]⟩ : Shape).size 1 : ℤ)
        rw [hstart1, hwin1, hsize1]
        omega

/-- Row `r` of the accumulated column: `x`'s plus the updates whose signed row number is `r`. -/
theorem scatterAddCol_apply {φ : FTy} {N M w : Nat} (wf : ScatterDims.WF ⟨2, ![N, 1]⟩ ⟨2, ![M, 1]⟩ ⟨2, ![M, 1]⟩ [1] [0] [0] 1)
    (x : FVec Ideal ⟨2, ![N, 1]⟩ φ) (idx : IVec ⟨2, ![M, 1]⟩ w) (upd : FVec Ideal ⟨2, ![M, 1]⟩ φ) (r : Fin N) :
    Host.scatterAdd (scatterCol N M wf) x idx upd (ix2 r 0)
      = (x (ix2 r 0) + ∑ e : Fin M, if (idx (ix2 e 0)).toInt = (r.val : ℤ) then upd (ix2 e 0) else 0 : EReal) := by
  show Ideal.hostScatterAdd (scatterCol N M wf) x idx upd (ix2 r 0) = _
  unfold Ideal.hostScatterAdd
  congr 1
  rw [Finset.sum_filter, sum_idxCol]
  refine Finset.sum_congr rfl fun e _ => ?_
  exact if_congr (scatterCol_resultIdx?_iff wf idx e r) rfl rfl

end Cert.RowIndexOps

end
-- ==== Proof.NodeForm.lean ====
/-
  What each program computes at one node, as a closed scalar expression of the arguments.

  A node `j` among 100000; 3200000 real edges, edge `e` with source word `ei[0, e]` and target word `ei[1, e]` (signed 32-bit
  words that need not name a node). A word read as a node for a GATHER is wrapped once by the number of nodes when negative
  and then clamped into range (`rowOf`); a word read as a target for a SCATTER is its signed value, and an update whose target
  is no node is dropped. `featAt` is the projected feature `(x · W)[j]`.
  The kernel's expression (`outK`): the degree counts the real edges into `j` and adds one; the aggregate is the normaliser at
  `j` times the sum over the real edges into `j` of (normaliser · feature) at the edge's source, plus the self-loop's term.
  The reference's expression (`outR`): the edge list with one self-loop per node appended (`srcWord'`, `dstWord'`: word
  `3200000 + i` of either row is the number `i`), the degree a count over all of them, the aggregate one sum over all of
  them of (normaliser at source · normaliser at target · feature at source).
  Both end in the same `epilogue` of (aggregate + bias).
-/
import proofs.«150326_j16630113370940_2_alg».proof.Proof.Spec
import proofs.«150326_j16630113370940_2_alg».proof.Proof.LibIndexOps

noncomputable section

open scoped BigOperators

namespace Cert.GcnForm

open Idealize.ShloMosaic Idealize.ShloMosaic.ValueIdx Cert.GcnLaw Cert.RowIndexOps

/-- The edge list: row 0 the sources, row 1 the targets. -/
abbrev Edges : Type := IVec ⟨2, ![2, 3200000]⟩ 32
/-- The node features. -/
abbrev Feats : Type := FVec Ideal ⟨2, ![100000, 256]⟩ .f32
/-- The projection's weights. -/
abbrev Weights : Type := FVec Ideal ⟨2, ![256, 1]⟩ .f32
/-- The bias. -/
abbrev Bias : Type := FVec Ideal ⟨1, ![1]⟩ .f32

/-- The float zero and one both programs write as literals. -/
def zero32 : EReal := Ideal.ofBits .f32 0x00000000#32
def one32 : EReal := Ideal.ofBits .f32 0x3F800000#32

/-- A negative word wrapped once by the number of nodes. -/
def wrapWord (v : BitVec 32) : BitVec 32 := Scalar.select (IntOp.cmpi .slt v 0#32) (IntOp.addi v 100000#32) v
/-- The node a gather reads for the word `v`: wrapped, then clamped. -/
def rowOf (v : BitVec 32) : Fin 100000 := clampRow 100000 (by decide) (wrapWord v)

/-- Edge `e`'s source and target words. -/
def srcWord (ei : Edges) (e : Fin 3200000) : BitVec 32 := ei (ix2 0 e)
def dstWord (ei : Edges) (e : Fin 3200000) : BitVec 32 := ei (ix2 1 e)

/-- The projected feature of node `r`. -/
def featAt (x : Feats) (w : Weights) (r : Fin 100000) : EReal := ∑ k : Fin 256, x (ix2 r k) * w (ix2 k 0)

/-! ## The kernel's expression -/

def degK (ei : Edges) (j : Fin 100000) : EReal :=
  (zero32 + ∑ e : Fin 3200000, if (dstWord ei e).toInt = (j.val : ℤ) then one32 else 0) + one32
def nrmK (ei : Edges) (j : Fin 100000) : EReal := normOf zero32 (degK ei j)
def aggK (ei : Edges) (x : Feats) (w : Weights) (j : Fin 100000) : EReal :=
  nrmK ei j * (zero32 + ∑ e : Fin 3200000,
      if (dstWord ei e).toInt = (j.val : ℤ) then nrmK ei (rowOf (srcWord ei e)) * featAt x w (rowOf (srcWord ei e)) else 0)
    + nrmK ei j * nrmK ei j * featAt x w j
def outK (ei : Edges) (x : Feats) (w : Weights) (b : Bias) (j : Fin 100000) : EReal :=
  epilogue zero32 (aggK ei x w j + b (ix1 0))

/-! ## The reference's expression -/

/-- The sources with the self-loops appended. -/
def srcWord' (ei : Edges) (e : Fin 3300000) : BitVec 32 :=
  if h : e.val < 3200000 then srcWord ei ⟨e.val, h⟩ else BitVec.ofNat 32 (e.val - 3200000)
/-- The targets with the self-loops appended. -/
def dstWord' (ei : Edges) (e : Fin 3300000) : BitVec 32 :=
  if h : e.val < 3200000 then dstWord ei ⟨e.val, h⟩ else BitVec.ofNat 32 (e.val - 3200000)

def degR (ei : Edges) (j : Fin 100000) : EReal :=
  zero32 + ∑ e : Fin 3300000, if (dstWord' ei e).toInt = (j.val : ℤ) then one32 else 0
def nrmR (ei : Edges) (j : Fin 100000) : EReal := normOf zero32 (degR ei j)
def aggR (ei : Edges) (x : Feats) (w : Weights) (j : Fin 100000) : EReal :=
  zero32 + ∑ e : Fin 3300000,
    if (dstWord' ei e).toInt = (j.val : ℤ) then
      nrmR ei (rowOf (srcWord' ei e)) * nrmR ei (rowOf (dstWord' ei e)) * featAt x w (rowOf (srcWord' ei e)) else 0
def outR (ei : Edges) (x : Feats) (w : Weights) (b : Bias) (j : Fin 100000) : EReal :=
  epilogue zero32 (aggR ei x w j + b (ix1 0))

end Cert.GcnForm

end
-- ==== Proof.RefNodeRead.lean ====
/-
  The reference program's result read at one node.

  Each stage of the reference is read at one index from the stage before it: the two rows of the edge list with one
  self-loop per node appended (`srcWord'`, `dstWord'`: a concatenation read on either side of word 3200000); the degree,
  a count over the appended list of the targets equal to the node; the guarded inverse square root of the degree; a word
  wrapped once and clamped into a node where it is read for a gather, read signed and unclamped where it is a scatter's
  target; the projected feature, one dot product per node; the update of an edge, (normaliser at source · normaliser at
  target) · feature at source, summed into its target; the bias added and the softplus epilogue applied. Together:
  entry `(r, 0)` of the result is `outR` at node `r`.
-/
import proofs.«150326_j16630113370940_2_alg».proof.Proof.RefReadPatched
import proofs.«150326_j16630113370940_2_alg».proof.Proof.NodeForm
import Idealize.ShloMosaic.Lib.Pipeline.Value
import Idealize.ShloMosaic.Lib.ValueIdx

set_option maxRecDepth 16384

noncomputable section

open scoped BigOperators

namespace Cert.ReferenceIdeal.NodeRead

open Idealize.ShloMosaic Idealize.ShloMosaic.ValueIdx
open Cert.ReferenceIdeal Cert.ReferenceIdeal.Gen Cert.ReferenceIdeal.ReadP
open Cert.GcnLaw Cert.GcnForm Cert.RowIndexOps

/-- The target words with the self-loops appended, read at an edge. -/
theorem v6_apply (x1 : IVec S2x3200000 32) (e : Fin 3300000) :
    val_main_v6 (F := Ideal) x1 (ix1 e) = dstWord' x1 e := by
  unfold val_main_v6 dstWord'
  by_cases h : e.val < 3200000
  · rw [dif_pos h]
    refine (concatenate_pair_apply_left (0 : Fin S3300000.rank) _ _ concatenates_S3200000_S100000_S3300000_d0
      (ix1 e) rfl (ix1 ⟨e.val, h⟩) ?_).trans ?_
    · intro b
      match b with
      | ⟨0, _⟩ => rfl
    · rw [val_main_v5_apply, val_main_v4_apply]
      unfold dstWord
      refine congrArg x1 (funext fun a => Fin.ext ?_)
      match a with
      | ⟨0, _⟩ => rfl
      | ⟨1, _⟩ => exact Nat.mod_eq_of_lt h
  · rw [dif_neg h]
    have he : e.val - 3200000 < 100000 := by have := e.isLt; omega
    refine (concatenate_pair_apply_right (0 : Fin S3300000.rank) _ _ concatenates_S3200000_S100000_S3300000_d0
      (ix1 e) rfl rfl (ix1 ⟨e.val - 3200000, he⟩) ?_ ?_).trans ?_
    · intro b hb
      exact absurd (Subsingleton.elim (α := Fin 1) _ _) hb
    · show e.val - 3200000 + 3200000 = e.val
      omega
    · rfl

/-- The source words with the self-loops appended, read at an edge. -/
theorem v3_apply (x1 : IVec S2x3200000 32) (e : Fin 3300000) :
    val_main_v3 (F := Ideal) x1 (ix1 e) = srcWord' x1 e := by
  unfold val_main_v3 srcWord'
  by_cases h : e.val < 3200000
  · rw [dif_pos h]
    refine (concatenate_pair_apply_left (0 : Fin S3300000.rank) _ _ concatenates_S3200000_S100000_S3300000_d0
      (ix1 e) rfl (ix1 ⟨e.val, h⟩) ?_).trans ?_
    · intro b
      match b with
      | ⟨0, _⟩ => rfl
    · rw [val_main_v2_apply, val_main_v1_apply]
      unfold srcWord
      refine congrArg x1 (funext fun a => Fin.ext ?_)
      match a with
      | ⟨0, _⟩ => rfl
      | ⟨1, _⟩ => exact Nat.mod_eq_of_lt h
  · rw [dif_neg h]
    have he : e.val - 3200000 < 100000 := by have := e.isLt; omega
    refine (concatenate_pair_apply_right (0 : Fin S3300000.rank) _ _ concatenates_S3200000_S100000_S3300000_d0
      (ix1 e) rfl rfl (ix1 ⟨e.val - 3200000, he⟩) ?_ ?_).trans ?_
    · intro b hb
      exact absurd (Subsingleton.elim (α := Fin 1) _ _) hb
    · show e.val - 3200000 + 3200000 = e.val
      omega
    · rfl

/-- A column index of a one-column array read back as the row's vector index. -/
theorem colIdx_eq (e : Fin 3300000) :
    (fun a : Fin S3300000.rank => match a with | ⟨0, _⟩ => (⟨((ix2 e (0 : Fin 1) : S3300000x1.Idx) 0).val, ((ix2 e (0 : Fin 1) : S3300000x1.Idx) 0).isLt⟩ : Fin 3300000)) = ix1 e := by
  funext a
  match a with
  | ⟨0, _⟩ => rfl

/-- The scatters' row numbers: the target words, as a column. -/
theorem v9_apply (x1 : IVec S2x3200000 32) (e : Fin 3300000) :
    val_main_v9 (F := Ideal) x1 (ix2 e 0) = dstWord' x1 e := by
  rw [val_main_v9_apply]
  exact (congrArg (val_main_v6 (F := Ideal) x1) (colIdx_eq e)).trans (v6_apply x1 e)

theorem v41_apply (x1 : IVec S2x3200000 32) (e : Fin 3300000) :
    val_main_v41 (F := Ideal) x1 (ix2 e 0) = dstWord' x1 e := by
  rw [val_main_v41_apply]
  exact (congrArg (val_main_v6 (F := Ideal) x1) (colIdx_eq e)).trans (v6_apply x1 e)

/-- The degree's updates are all one. -/
theorem v7_apply (e : Fin 3300000) : val_main_v7 (F := Ideal) (ix1 e) = one32 := by
  rw [val_main_v7_apply, val_main_cst_apply]
  rfl

/-- The degree's initial value is zero. -/
theorem v8_apply (j : Fin 100000) : val_main_v8 (F := Ideal) (ix1 j) = zero32 := by
  rw [val_main_v8_apply, val_main_cst_0_apply]
  rfl

/-- The degree of node `j`: a count over the extended edge list. -/
theorem v10_apply (x1 : IVec S2x3200000 32) (j : Fin 100000) :
    val_main_v10 (F := Ideal) x1 (ix1 j) = degR x1 j := by
  unfold val_main_v10 degR
  refine (scatterAddVec_apply (N := 100000) (M := 3300000) _ _ _ _ j).trans ?_
  rw [v8_apply]
  refine congrArg _ (Finset.sum_congr rfl fun e _ => ?_)
  rw [v9_apply, v7_apply]

/-- The normaliser of node `j`. -/
theorem v14_apply (x1 : IVec S2x3200000 32) (j : Fin 100000) :
    val_main_v14 (F := Ideal) x1 (ix1 j) = nrmR x1 j := by
  rw [val_main_v14_apply, val_main_v12_apply, val_main_v13_apply, v10_apply, val_main_v11_apply,
    val_main_cst_1_apply, val_main_call0_v1_apply, val_main_call0_v0_apply, val_main_cst_2_apply]
  rw [Ideal.ofBits_def, Ideal.hostUnary_rsqrt_def]
  unfold nrmR normOf zero32
  have hc : ∀ a b : EReal, (FloatOps.cmpf (F := Ideal) (φ := .f32) .ogt a b) = Ideal.cmp .ogt a b := fun _ _ => rfl
  rw [hc]

/-- The wrapped source word of an edge, as a column. -/
theorem v20_apply (x1 : IVec S2x3200000 32) (e : Fin 3300000) :
    val_main_v20 (F := Ideal) x1 (ix2 e 0) = wrapWord (srcWord' x1 e) := by
  rw [val_main_v20_apply]
  refine (congrArg (val_main_v19 (F := Ideal) x1) (colIdx_eq e)).trans ?_
  rw [val_main_v19_apply, val_main_v16_apply, val_main_v18_apply, v3_apply, val_main_v15_apply, val_main_c_apply,
    val_main_v17_apply, val_main_c_3_apply]
  rfl

/-- The wrapped target word of an edge, as a column. -/
theorem v27_apply (x1 : IVec S2x3200000 32) (e : Fin 3300000) :
    val_main_v27 (F := Ideal) x1 (ix2 e 0) = wrapWord (dstWord' x1 e) := by
  rw [val_main_v27_apply]
  refine (congrArg (val_main_v26 (F := Ideal) x1) (colIdx_eq e)).trans ?_
  rw [val_main_v26_apply, val_main_v23_apply, val_main_v25_apply, v6_apply, val_main_v22_apply, val_main_c_4_apply,
    val_main_v24_apply, val_main_c_5_apply]
  rfl

/-- The wrapped source word of an edge, as a column (the feature gather's copy). -/
theorem v37_apply (x1 : IVec S2x3200000 32) (e : Fin 3300000) :
    val_main_v37 (F := Ideal) x1 (ix2 e 0) = wrapWord (srcWord' x1 e) := by
  rw [val_main_v37_apply]
  refine (congrArg (val_main_v36 (F := Ideal) x1) (colIdx_eq e)).trans ?_
  rw [val_main_v36_apply, val_main_v33_apply, val_main_v35_apply, v3_apply, val_main_v32_apply, val_main_c_6_apply,
    val_main_v34_apply, val_main_c_7_apply]
  rfl

/-- The normaliser at an edge's source. -/
theorem v21_apply (x1 : IVec S2x3200000 32) (e : Fin 3300000) :
    val_main_v21 (F := Ideal) x1 (ix1 e) = nrmR x1 (rowOf (srcWord' x1 e)) := by
  unfold val_main_v21
  refine (gatherVec_apply (N := 100000) (M := 3300000) (by decide) _ _ _ e).trans ?_
  rw [v14_apply, v20_apply]
  rfl

/-- The normaliser at an edge's target. -/
theorem v28_apply (x1 : IVec S2x3200000 32) (e : Fin 3300000) :
    val_main_v28 (F := Ideal) x1 (ix1 e) = nrmR x1 (rowOf (dstWord' x1 e)) := by
  unfold val_main_v28
  refine (gatherVec_apply (N := 100000) (M := 3300000) (by decide) _ _ _ e).trans ?_
  rw [v14_apply, v27_apply]
  rfl

/-- The projected feature of node `j`. -/
theorem v30_apply (x0 : FVec Ideal S100000x256 .f32) (x2 : FVec Ideal S256x1 .f32) (j : Fin 100000) :
    val_main_v30 (F := Ideal) x0 x2 (ix2 j 0) = featAt x0 x2 j := by
  rw [val_main_v30_apply]
  unfold featAt
  refine Finset.sum_congr rfl fun k _ => ?_
  have hl : lidx_main_v30 (ix2 j 0) k = ix2 j k := funext fun a => by
    match a with
    | ⟨0, _⟩ => rfl
    | ⟨1, _⟩ => rfl
  have hr : ridx_main_v30 (ix2 j 0) k = ix2 k 0 := funext fun a => by
    match a with
    | ⟨0, _⟩ => rfl
    | ⟨1, _⟩ => rfl
  rw [hl, hr]

/-- The projected feature at an edge's source. -/
theorem v38_apply (x0 : FVec Ideal S100000x256 .f32) (x1 : IVec S2x3200000 32) (x2 : FVec Ideal S256x1 .f32) (e : Fin 3300000) :
    val_main_v38 (F := Ideal) x0 x1 x2 (ix2 e 0) = featAt x0 x2 (rowOf (srcWord' x1 e)) := by
  unfold val_main_v38
  refine (gatherCol_apply (N := 100000) (M := 3300000) (by decide) _ _ _ e).trans ?_
  rw [v30_apply, v37_apply]
  rfl

/-- The update of edge `e`: (normaliser at source · normaliser at target) · feature at source. -/
theorem v39_apply (x0 : FVec Ideal S100000x256 .f32) (x1 : IVec S2x3200000 32) (x2 : FVec Ideal S256x1 .f32) (e : Fin 3300000) :
    val_main_v39 (F := Ideal) x0 x1 x2 (ix2 e 0)
      = nrmR x1 (rowOf (srcWord' x1 e)) * nrmR x1 (rowOf (dstWord' x1 e)) * featAt x0 x2 (rowOf (srcWord' x1 e)) := by
  rw [val_main_v39_apply, v38_apply, val_main_v31_apply]
  rw [show val_main_v29 (F := Ideal) x1 (idx_main_v31 (ix2 e 0)) = val_main_v29 (F := Ideal) x1 (ix1 e) from
    congrArg (val_main_v29 (F := Ideal) x1) (colIdx_eq e)]
  rw [val_main_v29_apply, v21_apply, v28_apply, Ideal.mulf_def, Ideal.mulf_def]

/-- The aggregate's initial value is zero. -/
theorem v40_apply (j : Fin 100000) : val_main_v40 (F := Ideal) (ix2 j 0) = zero32 := by
  rw [val_main_v40_apply, val_main_cst_8_apply]
  rfl

/-- The aggregate of node `j`: one sum over the extended edge list. -/
theorem v42_apply (x0 : FVec Ideal S100000x256 .f32) (x1 : IVec S2x3200000 32) (x2 : FVec Ideal S256x1 .f32) (j : Fin 100000) :
    val_main_v42 (F := Ideal) x0 x1 x2 (ix2 j 0) = aggR x1 x0 x2 j := by
  unfold val_main_v42 aggR
  refine (scatterAddCol_apply (N := 100000) (M := 3300000) _ _ _ _ j).trans ?_
  rw [v40_apply]
  refine congrArg _ (Finset.sum_congr rfl fun e _ => ?_)
  rw [v41_apply, v39_apply]

/-- The bias, broadcast to every node. -/
theorem v44_apply (x3 : FVec Ideal S1 .f32) (j : Fin 100000) :
    val_main_v44 (F := Ideal) x3 (ix2 j 0) = x3 (ix1 0) := by
  rw [val_main_v44_apply, val_main_v43_apply]
  refine congrArg x3 (funext fun a => ?_)
  match a with
  | ⟨0, _⟩ => rfl

/-- Aggregate plus bias at node `j`. -/
theorem v45_apply (x0 : FVec Ideal S100000x256 .f32) (x1 : IVec S2x3200000 32) (x2 : FVec Ideal S256x1 .f32) (x3 : FVec Ideal S1 .f32)
    (j : Fin 100000) :
    val_main_v45 (F := Ideal) x0 x1 x2 x3 (ix2 j 0) = aggR x1 x0 x2 j + x3 (ix1 0) := by
  rw [val_main_v45_apply, v42_apply, v44_apply, Ideal.addf_def]

/-- THE REFERENCE AT NODE `r`: its result column's entry `(r, 0)` is `outR` of the arguments. -/
theorem ref_apply (x0 : FVec Ideal S100000x256 .f32) (x1 : IVec S2x3200000 32) (x2 : FVec Ideal S256x1 .f32) (x3 : FVec Ideal S1 .f32)
    (r : Fin 100000) :
    val_main_v46 (F := Ideal) x0 x1 x2 x3 (ix2 r 0) = outR x1 x0 x2 x3 r := by
  rw [val_main_v46_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply]
  simp only [val_main_call1_cst_apply]
  rw [v45_apply, Ideal.ofBits_def]
  unfold outR epilogue zero32
  rfl

end Cert.ReferenceIdeal.NodeRead

end
-- ==== Proof.KernelTail.lean ====
/-
  The kernel's program after its one region: what the host operations that follow compute from the region's output
  array `hp` (the projected features, one per node), the edge list `ei` and the bias `b`.

  In order: the two rows of the edge list, sources and targets; the degree of a node, the number of real edges whose target
  row number is the node (a scatter of ones) plus one for its self-loop; the guarded inverse square root `nrm` of the
  degree; the messages `nrm[s] · hp[s]` gathered at each edge's source (a negative row number wrapped once by the number
  of nodes, then clamped); their sum into each target (a scatter); the aggregate
  `nrm[j] · (sum of messages into j) + nrm[j] · nrm[j] · hp[j]`; the bias added; softplus; the vector laid out as a column.
  `tail_eq` says the kernel's run leaves exactly this in its result buffer.
-/
import proofs.«150326_j16630113370940_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Tail

open Idealize.ShloMosaic Idealize.ShloMosaic.TcCoe Idealize.ShloMosaic.Tactic
open Idealize.SL Idealize.SL.Sem
open Idealize.ShloMosaic.StableHlo
open Cert.KernelIdeal Cert.KernelIdeal.Gen

variable {F : FTy → Type} [FloatOps F]

/-- The edges' source row numbers: row 0 of the edge list. -/
def srcOf (ei : IVec S2x3200000 32) : IVec S3200000 32 :=
  shapeCast S3200000 (extractStridedSlice S1x3200000 ![0, 0] ei slices_S2x3200000_S1x3200000_0_0) shapeCasts_S1x3200000_S3200000
/-- The edges' target row numbers: row 1 of the edge list. -/
def dstOf (ei : IVec S2x3200000 32) : IVec S3200000 32 :=
  shapeCast S3200000 (extractStridedSlice S1x3200000 ![1, 0] ei slices_S2x3200000_S1x3200000_1_0) shapeCasts_S1x3200000_S3200000
/-- The target row numbers as the column a scatter reads. -/
def dstCol (ei : IVec S2x3200000 32) : IVec S3200000x1 32 :=
  broadcastInDim S3200000x1 ![0] bcast_S3200000_S3200000x1_0 (dstOf ei)
/-- Zero at every node. -/
def zerosN : FVec F S100000 .f32 := broadcastInDim S100000 ![] bcast_S_S100000 (constant (F := F) S_ .f32 0x00000000#32)
/-- One at every node. -/
def onesN : FVec F S100000 .f32 := broadcastInDim S100000 ![] bcast_S_S100000 (constant (F := F) S_ .f32 0x3F800000#32)
/-- One at every edge. -/
def onesE : FVec F S3200000 .f32 := broadcastInDim S3200000 ![] bcast_S_S3200000 (constant (F := F) S_ .f32 0x3F800000#32)
/-- The degree: the real edges into a node, and one for its self-loop. -/
def degOf (ei : IVec S2x3200000 32) : FVec F S100000 .f32 :=
  addf (Host.scatterAdd scatter_S100000_S3200000x1_S3200000_n_0_0_1 zerosN (dstCol ei) onesE) onesN
/-- The guarded inverse square root of the degree (the guard's alternative is the zero, passed through the identity). -/
def normVec (ei : IVec S2x3200000 32) : FVec F S100000 .f32 :=
  select (cmpf .ogt (degOf (F := F) ei) zerosN) (Host.rsqrt (degOf (F := F) ei))
    (broadcastInDim S100000 ![] bcast_S_S100000 (id (constant (F := F) S_ .f32 0x00000000#32)))
/-- The region's output column as a vector. -/
def projVec (hp : FVec F S100000x1 .f32) : FVec F S100000 .f32 := shapeCast S100000 hp shapeCasts_S100000x1_S100000
/-- The source row numbers, a negative one wrapped once by the number of nodes. -/
def srcWrapped (ei : IVec S2x3200000 32) : IVec S3200000 32 :=
  select (cmpi .slt (srcOf ei) (broadcastInDim S3200000 ![] bcast_S_S3200000 (constantI S_ 32 0#32)))
    (addi (srcOf ei) (broadcastInDim S3200000 ![] bcast_S_S3200000 (constantI S_ 32 100000#32))) (srcOf ei)
/-- The message of each edge: the normalised feature of its source. -/
def messages (ei : IVec S2x3200000 32) (hp : FVec F S100000x1 .f32) : FVec F S3200000 .f32 :=
  Host.gather gather_S100000_S3200000x1_S3200000_n_0_n_n_0_1_1 (mulf (normVec (F := F) ei) (projVec hp))
    (broadcastInDim S3200000x1 ![0] bcast_S3200000_S3200000x1_0 (srcWrapped ei))
/-- The messages summed into their targets. -/
def edgeSum (ei : IVec S2x3200000 32) (hp : FVec F S100000x1 .f32) : FVec F S100000 .f32 :=
  Host.scatterAdd scatter_S100000_S3200000x1_S3200000_n_0_0_1 zerosN (dstCol ei) (messages ei hp)
/-- The aggregate: the real edges' sum normalised at the target, and the self-loop's term. -/
def aggregate (ei : IVec S2x3200000 32) (hp : FVec F S100000x1 .f32) : FVec F S100000 .f32 :=
  addf (mulf (normVec (F := F) ei) (edgeSum ei hp)) (mulf (mulf (normVec (F := F) ei) (normVec (F := F) ei)) (projVec hp))
/-- The bias added at every node. -/
def biased (ei : IVec S2x3200000 32) (hp : FVec F S100000x1 .f32) (b : FVec F S1 .f32) : FVec F S100000 .f32 :=
  addf (aggregate ei hp) (broadcastInDim S100000 ![] bcast_S_S100000 (shapeCast S_ b shapeCasts_S1_S_))
/-- jax's softplus, operation by operation, over any shape: `z` is the zero array. -/
def softplusVec {s : Shape} (z a : FVec F s .f32) : FVec F s .f32 :=
  select (cmpf .une (subf a z) (subf a z)) (addf a z)
    (addf (maximumf a z) (Host.log1p (Host.exp (Host.negf (Host.absf (subf a z))))))
/-- The kernel program's result from the region's output, the edge list and the bias. -/
def tailOf (ei : IVec S2x3200000 32) (hp : FVec F S100000x1 .f32) (b : FVec F S1 .f32) : FVec F S100000x1 .f32 :=
  broadcastInDim S100000x1 ![0] bcast_S100000_S100000x1_0 (softplusVec zerosN (biased ei hp b))

set_option maxRecDepth 131072 in
set_option maxHeartbeats 4000000 in
/-- What the host operations after the region leave in the result buffer: `tailOf` of the region's output array as the
    proof data computes it, the edge list and the bias as launched. -/
theorem tail_eq (m : (ℓ : Loc nD τ sig) → Buf (Elt F) ℓ) (c : Dev nD) :
    Pipeline.afterTail₀ cfgs (dats (F := F) m) 0 (V0 m) [hostOps1, hostOps1_1, hostOps1_2, hostOps1_3, hostOps1_4] c main_v35
      = tailOf (m ((c.tc : Thread nD τ).loc main_arg1)) ((dats (F := F) m 0 c).arrAt 2 cfg0.N) (m ((c.tc : Thread nD τ).loc main_arg3)) := by
  have e1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  have e3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  have e0 : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c _ _ 2
  unfold Pipeline.afterTail₀
  simp only [hostOps1, hostOps1_1, hostOps1_2, hostOps1_3, hostOps1_4, List.flatten_cons, List.flatten_nil, List.append_nil, List.cons_append,
    List.nil_append]
  after_results_simp
  rw [e1, e3, e0]
  generalize (dats m 0 c).arrAt 2 cfg0.N = hp
  generalize m ((c.tc : Thread nD τ).loc main_arg1) = ei
  generalize m ((c.tc : Thread nD τ).loc main_arg3) = b
  unfold tailOf softplusVec biased aggregate edgeSum messages srcWrapped projVec normVec degOf onesE onesN zerosN dstCol dstOf srcOf
  rfl

end Cert.KernelIdeal.Tail

end
-- ==== Proof.ProjValue.lean ====
/- What the pipelined region leaves in its one output array, as one function of the argument arrays,
   over the extended reals. The region multiplies the [100000,256] array by the [256,1] column in 20 row blocks of
   5000 rows; at the ideal instance the narrowing of the operands is the identity and the product of a block is the
   plain sum over the 256 contracted positions, so row r of the result is Σ_k x[r,k]·w[k,0]. -/
import proofs.«150326_j16630113370940_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ProjValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## The projection -/

/-- row r of the projection: Σ_k x[r,k]·W[k,0] over the extended reals -/
def proj (x : FVec Ideal S100000x256 .f32) (w : FVec Ideal S256x1 .f32) : FVec Ideal S100000x1 .f32 :=
  fun i => ∑ k : Fin 256, x (ix2 ⟨(i 0).val, idx2_lt0 i⟩ k) * w (ix2 k 0)

theorem hz : (![0, 0] : Fin 2 → Nat) = fun _ => 0 := funext fun a => by fin_cases a <;> rfl

/-! ## The block product at an index -/

/-- The block product's left operand index keeps the output row … -/
theorem lhs_row (i : S5000x1.Idx) (q : dot_S5000x256_S256x1_S5000x1_1_0_0_1_n_n.contr.Idx) :
    (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
/-- … and takes the contracted position as its column; -/
theorem lhs_col (i : S5000x1.Idx) (q : dot_S5000x256_S256x1_S5000x1_1_0_0_1_n_n.contr.Idx) :
    (dot_S5000x256_S256x1_S5000x1_1_0_0_1_n_n.lhsIdx i q 1).val = (q ⟨0, by decide⟩).val :=
  dot_S5000x256_S256x1_S5000x1_1_0_0_1_n_n.lhsIdx_val_of_single rfl i q
/-- the right operand index takes the contracted position as its row … -/
theorem rhs_row (i : S5000x1.Idx) (q : dot_S5000x256_S256x1_S5000x1_1_0_0_1_n_n.contr.Idx) :
    (dot_S5000x256_S256x1_S5000x1_1_0_0_1_n_n.rhsIdx i q 0).val = (q ⟨0, by decide⟩).val :=
  dot_S5000x256_S256x1_S5000x1_1_0_0_1_n_n.rhsIdx_val_of_single rfl i q
/-- … and keeps the output column. -/
theorem rhs_col (i : S5000x1.Idx) (q : dot_S5000x256_S256x1_S5000x1_1_0_0_1_n_n.contr.Idx) :
    (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-- The body's payload at an index of its [5000,1] block: over the extended reals the narrowing of each operand is
    the identity and the product into the zero accumulator is the plain sum, so row p of the block's result is
    Σ_k x0[p,k]·x1[k,0]. -/
theorem pay_apply (x0 : Vec Ideal S5000x256 .f32) (x1 : Vec Ideal S256x1 .f32) (j : S5000x1.Idx) :
    k0_pay1 (F := Ideal) x0 x1 j = ∑ k : Fin 256, x0 (ix2 ⟨(j 0).val, idx2_lt0 j⟩ k) * x1 (ix2 k 0) := by
  unfold k0_pay1
  simp only [matmul]
  rw [Ideal.matmul_constant_zero_apply, ← Equiv.sum_comp (contrEquiv1 dot_S5000x256_S256x1_S5000x1_1_0_0_1_n_n 256 rfl rfl).symm]
  refine Finset.sum_congr rfl fun k _ => ?_
  have hk := contrEquiv1_symm_val dot_S5000x256_S256x1_S5000x1_1_0_0_1_n_n 256 rfl rfl k
  have hj1 : (j 1).val = 0 := by have := idx2_lt1 j; omega
  have el : dot_S5000x256_S256x1_S5000x1_1_0_0_1_n_n.lhsIdx j ((contrEquiv1 dot_S5000x256_S256x1_S5000x1_1_0_0_1_n_n 256 rfl rfl).symm k) = ix2 ⟨(j 0).val, idx2_lt0 j⟩ k := funext fun a => Fin.ext (by
    match a with
    | ⟨0, _⟩ => exact lhs_row _ _
    | ⟨1, _⟩ => exact (lhs_col _ _).trans hk)
  have er : dot_S5000x256_S256x1_S5000x1_1_0_0_1_n_n.rhsIdx j ((contrEquiv1 dot_S5000x256_S256x1_S5000x1_1_0_0_1_n_n 256 rfl rfl).symm k) = ix2 k 0 := funext fun a => Fin.ext (by
    match a with
    | ⟨0, _⟩ => exact (rhs_row _ _).trans hk
    | ⟨1, _⟩ => exact (rhs_col _ _).trans hj1)
  rw [truncf_apply, truncf_apply, el, er]

/-- The same at row p of the block, the index spelt by its coordinates. -/
theorem pay_row (x0 : Vec Ideal S5000x256 .f32) (x1 : Vec Ideal S256x1 .f32) (p : Fin 5000) :
    k0_pay1 (F := Ideal) x0 x1 (ix2 p 0) = ∑ k : Fin 256, x0 (ix2 p k) * x1 (ix2 k 0) :=
  pay_apply x0 x1 (ix2 p 0)

/-! ## The windows' index maps, decided over the grid -/

/-- At every point the left operand's row block is the output's, its column block is 0; the column operand's block
    is (0, 0); the output's row block is one of the 20 and its column block is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every one of the 20 row blocks of the output is SOME point's. -/
theorem idx_onto : ∀ q : Fin 20, ∃ t : Fin cfg0.N, win0_2.index t = ![q.val, 0] :=
  (by decide +kernel : ∀ q : Fin 20, ∃ t : Fin grid0.N, win0_2.index t = ![q.val, 0])

/-! ## What a point writes back -/

/-- WHAT POINT t WRITES BACK is block t of the projection of the argument arrays as the region finds them: the
    left operand's block at t is the rows of the output's block (all 256 columns), the column operand's block is the
    whole column, so row p of the block's product is the projection's row (block index)·5000 + p. -/
theorem flushed_eq (c : Dev nD) (t : Fin cfg0.N) :
    (dats m 0 c).flushed 2 t = ((cfg0.win 2).blk t).view.read (Elt Ideal) (proj (V m c main_arg0) (V m c main_arg2)) := by
  show (cfg0.win 2).cut (grid0.coords t) ((dats m 0 c).after 2 t) = _
  rw [after0_2]
  unfold out0_2
  rw [View.canon_unit_zero hz]
  simp only [View.ld_unit_zero (S := S5000x256) hz, View.ld_unit_zero (S := S256x1) hz]
  obtain ⟨e0, e1, e2, e3, e4, e5⟩ := idx_facts t
  funext j
  show k0_pay1 (F := Ideal) (iblk m c 0 t) (iblk m c 1 t) j = proj (V m c main_arg0) (V m c main_arg2) (((cfg0.win 2).blk t).view.emb j)
  refine (pay_apply (iblk m c 0 t) (iblk m c 1 t) j).trans ?_
  unfold proj
  refine Finset.sum_congr rfl fun k _ => ?_
  have h0 : iblk m c 0 t (ix2 ⟨(j 0).val, idx2_lt0 j⟩ k) = V m c main_arg0 (ix2 ⟨((((cfg0.win 2).blk t).view.emb j) 0).val, idx2_lt0 _⟩ k) := by
    show V m c main_arg0 (((cfg0.win 0).blk t).view.emb (ix2 ⟨(j 0).val, idx2_lt0 j⟩ k)) = _
    refine congrArg (V m c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk m c 1 t (ix2 k 0) = V m c main_arg2 (ix2 k 0) := by
    show V m c main_arg2 (((cfg0.win 1).blk t).view.emb (ix2 k 0)) = _
    refine congrArg (V m c main_arg2) (funext fun a => Fin.ext ?_)
    match a with
    | ⟨0, _⟩ => show win0_1.index t (0 : Fin 2) * 256 + 1 * k.val = k.val; omega
    | ⟨1, _⟩ => show win0_1.index t (1 : Fin 2) * 1 + 1 * 0 = 0; omega
  rw [h0, h1]

/-! ## The blocks cover the array -/

/-- An index of the array is in point t's block iff each coordinate is in the block's range on its axis. -/
theorem mem_blk (t : Fin cfg0.N) (i : S100000x1.Idx) :
    i ∈ ((cfg0.win 2).blk t).view.set ↔ ∀ a : Fin 2, win0_2.index t a * S5000x1.size a ≤ (i a).val ∧ (i a).val < win0_2.index t a * S5000x1.size a + S5000x1.size a := by
  show i ∈ ((View.whole main_v0).slice (win0_2.rect t)).set ↔ _
  rw [View.set_slice_whole, Rect.mem_set_unit]
  exact Iff.rfl

/-- Every index of the array is in some point's block: row r is in the block of index r / 5000 (20 blocks of 5000
    rows are the 100000 rows), and the one column is every block's. -/
theorem cover (i : S100000x1.Idx) :
    ∃ t : Fin cfg0.N, (cfg0.win 2).flush t = true ∧ i ∈ ((cfg0.win 2).blk t).view.set := by
  have hi0 : (i 0).val < 100000 := idx2_lt0 i
  have hi1 : (i 1).val < 1 := idx2_lt1 i
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 1 ≤ (i 1).val ∧ (i 1).val < win0_2.index t (1 : Fin 2) * 1 + 1; omega

/-! ## The array after the region -/

/-- THE ARRAY after the region: the projection of the two argument arrays, at every index. -/
theorem final (c : Dev nD) :
    (dats (F := Ideal) m 0 c).arrAt 2 cfg0.N = proj (m ((c : Thread nD τ).loc main_arg0)) (m ((c : Thread nD τ).loc main_arg2)) :=
  (dats m 0 c).arrAt_eq_of_cover 2 (proj (V m c main_arg0) (V m c main_arg2)) (fun t _ => flushed_eq m c t) cover

end Cert.KernelIdeal.ProjValue

end
-- ==== Proof.KernelNodeRead.lean ====
/-
  The kernel program's result read at one node.

  Each stage of the host operations that follow the projection is read at an index: the two rows of the edge list are the
  source and target words; a broadcast constant is its literal; the degree is a count of the real edges into the node plus
  one; the normaliser is the guarded inverse square root of the degree; an edge's message is the normalised feature at
  the node its source word names (wrapped once, then clamped); the messages are summed into their targets; the aggregate
  adds the self-loop's term; the bias is added; softplus is applied. Read at node `r`, the whole is the closed expression `outK`.
-/
import proofs.«150326_j16630113370940_2_alg».proof.Proof.KernelTail
import proofs.«150326_j16630113370940_2_alg».proof.Proof.ProjValue
import proofs.«150326_j16630113370940_2_alg».proof.Proof.NodeForm
import Idealize.ShloMosaic.Lib.Pipeline.Value
import Idealize.ShloMosaic.Lib.ValueIdx

set_option maxRecDepth 16384

noncomputable section

open scoped BigOperators

namespace Cert.KernelIdeal.NodeRead

open Idealize.ShloMosaic Idealize.ShloMosaic.ValueIdx
open Cert.KernelIdeal Cert.KernelIdeal.Gen Cert.KernelIdeal.Tail
open Cert.GcnLaw Cert.GcnForm Cert.RowIndexOps

/-! ## The edge list's rows -/

/-- Row 0 of the edge list at edge `e` is the edge's source word. -/
theorem srcOf_apply (ei : IVec S2x3200000 32) (e : Fin 3200000) : srcOf ei (ix1 e) = srcWord ei e := by
  unfold srcOf
  refine (shapeCast_apply _ shapeCasts_S1x3200000_S3200000 (ix1 e) (ix2 (0 : Fin 1) e) ?_).trans ?_
  · rewrite [Shape.rowMajor_val_two, Shape.rowMajor_val_one]
    show 0 * 3200000 + e.val = e.val
    omega
  · refine (extractStridedSlice_apply ![0, 0] ei slices_S2x3200000_S1x3200000_0_0 (ix2 (0 : Fin 1) e) (ix2 (0 : Fin 2) e)
      (fun a => match a with
        | ⟨0, _⟩ => by show (0 : Nat) = 0 + 0; omega
        | ⟨1, _⟩ => by show e.val = 0 + e.val; omega)).trans ?_
    rfl

/-- Row 1 of the edge list at edge `e` is the edge's target word. -/
theorem dstOf_apply (ei : IVec S2x3200000 32) (e : Fin 3200000) : dstOf ei (ix1 e) = dstWord ei e := by
  unfold dstOf
  refine (shapeCast_apply _ shapeCasts_S1x3200000_S3200000 (ix1 e) (ix2 (0 : Fin 1) e) ?_).trans ?_
  · rewrite [Shape.rowMajor_val_two, Shape.rowMajor_val_one]
    show 0 * 3200000 + e.val = e.val
    omega
  · refine (extractStridedSlice_apply ![1, 0] ei slices_S2x3200000_S1x3200000_1_0 (ix2 (0 : Fin 1) e) (ix2 (1 : Fin 2) e)
      (fun a => match a with
        | ⟨0, _⟩ => by show (1 : Nat) = 1 + 0; omega
        | ⟨1, _⟩ => by show e.val = 0 + e.val; omega)).trans ?_
    rfl

/-- The target column at `(e, 0)` is the edge's target word. -/
theorem dstCol_apply (ei : IVec S2x3200000 32) (e : Fin 3200000) : dstCol ei (ix2 e 0) = dstWord ei e := by
  unfold dstCol
  refine (broadcastInDim_apply _ bcast_S3200000_S3200000x1_0 (dstOf ei) (ix2 e 0) (ix1 e) (fun a => match a with
    | ⟨0, _⟩ => by show e.val = if (3200000 : Nat) = 1 then 0 else e.val; rw [if_neg (by decide)])).trans ?_
  exact dstOf_apply ei e

/-! ## The broadcast constants -/

/-- The zero vector reads the float zero at every node. -/
theorem zerosN_apply (i : S100000.Idx) : zerosN (F := Ideal) i = zero32 := by
  unfold zerosN
  exact (broadcastInDim_apply _ bcast_S_S100000 _ i ix0 (fun a => a.elim0)).trans rfl

/-- The ones vector reads the float one at every node. -/
theorem onesN_apply (i : S100000.Idx) : onesN (F := Ideal) i = one32 := by
  unfold onesN
  exact (broadcastInDim_apply _ bcast_S_S100000 _ i ix0 (fun a => a.elim0)).trans rfl

/-- The ones vector over the edges reads the float one at every edge. -/
theorem onesE_apply (i : S3200000.Idx) : onesE (F := Ideal) i = one32 := by
  unfold onesE
  exact (broadcastInDim_apply _ bcast_S_S3200000 _ i ix0 (fun a => a.elim0)).trans rfl

/-! ## The scatter and the gather at an index -/

/-- Row `j` of a vector accumulated along the target column: its own entry plus the updates whose signed target word is `j`. -/
theorem scatter_apply (x : FVec Ideal S100000 .f32) (idx : IVec S3200000x1 32) (upd : FVec Ideal S3200000 .f32) (j : Fin 100000) :
    Host.scatterAdd scatter_S100000_S3200000x1_S3200000_n_0_0_1 x idx upd (ix1 j)
      = (x (ix1 j) + ∑ e : Fin 3200000, if (idx (ix2 e 0)).toInt = (j.val : ℤ) then upd (ix1 e) else 0 : EReal) :=
  scatterAddVec_apply (N := 100000) (M := 3200000) scatter_S100000_S3200000x1_S3200000_n_0_0_1.wf x idx upd j

/-- Entry `e` of a vector gathered along a column of row words: the vector at the clamped word. -/
theorem gather_apply (x : FVec Ideal S100000 .f32) (idx : IVec S3200000x1 32) (e : Fin 3200000) :
    Host.gather gather_S100000_S3200000x1_S3200000_n_0_n_n_0_1_1 x idx (ix1 e)
      = x (ix1 (clampRow 100000 (by decide) (idx (ix2 e 0)))) :=
  gatherVec_apply (N := 100000) (M := 3200000) (by decide) gather_S100000_S3200000x1_S3200000_n_0_n_n_0_1_1.wf x idx e

/-! ## The degree and the normaliser -/

/-- The degree of node `j`: the real edges whose target word is `j`, and one. -/
theorem degOf_apply (ei : IVec S2x3200000 32) (j : Fin 100000) : degOf (F := Ideal) ei (ix1 j) = degK ei j := by
  unfold degOf degK
  rw [addf_apply, scatter_apply, onesN_apply, zerosN_apply]
  simp only [dstCol_apply, onesE_apply]

/-- The guard's alternative, the zero passed through the identity and broadcast, reads the zero. -/
theorem zeroAlt_apply (i : S100000.Idx) :
    broadcastInDim S100000 ![] bcast_S_S100000 (id (constant (F := Ideal) S_ .f32 0x00000000#32)) i = zero32 :=
  (broadcastInDim_apply _ bcast_S_S100000 _ i ix0 (fun a => a.elim0)).trans rfl

/-- The guarded inverse square root, as the scalar operations spell it, is `normOf`. -/
theorem normOf_spelt (z d : EReal) :
    Scalar.select (FloatOps.cmpf (F := Ideal) (φ := .f32) .ogt d z) (FloatOps.hostUnary (F := Ideal) (φ := .f32) .rsqrt d) z = normOf z d := rfl

/-- The inverse square root of a vector at an index is that of the element. -/
theorem rsqrt_apply (a : FVec Ideal S100000 .f32) (i : S100000.Idx) : Host.rsqrt a i = FloatOps.hostUnary .rsqrt (a i) := rfl

/-- The normaliser of node `j`: the guarded inverse square root of its degree. -/
theorem normVec_apply (ei : IVec S2x3200000 32) (j : Fin 100000) : normVec (F := Ideal) ei (ix1 j) = nrmK ei j := by
  unfold normVec nrmK
  rw [select_apply, cmpf_apply, rsqrt_apply, zeroAlt_apply, zerosN_apply, degOf_apply]
  exact normOf_spelt zero32 (degK ei j)

/-! ## The projected features and the messages -/

/-- The region's output column, laid out as a vector, at node `j` is the projected feature of `j`. -/
theorem projVec_apply (x : FVec Ideal S100000x256 .f32) (w : FVec Ideal S256x1 .f32) (j : Fin 100000) :
    projVec (F := Ideal) (Cert.KernelIdeal.ProjValue.proj x w) (ix1 j) = featAt x w j := by
  unfold projVec
  refine (shapeCast_apply _ shapeCasts_S100000x1_S100000 (ix1 j) (ix2 j (0 : Fin 1)) ?_).trans ?_
  · rewrite [Shape.rowMajor_val_two, Shape.rowMajor_val_one]
    show j.val * 1 + 0 = j.val
    omega
  · rfl

/-- A broadcast integer constant reads its literal at every edge. -/
theorem constE_apply (v : BitVec 32) (i : S3200000.Idx) :
    broadcastInDim S3200000 ![] bcast_S_S3200000 (constantI S_ 32 v) i = v :=
  (broadcastInDim_apply _ bcast_S_S3200000 _ i ix0 (fun a => a.elim0)).trans rfl

/-- A signed comparison of two word vectors at an index compares the words. -/
theorem cmpi_apply (p : CmpIPredicate) (a c : IVec S3200000 32) (i : S3200000.Idx) : cmpi p a c i = IntOp.cmpi p (a i) (c i) := rfl

/-- A sum of two word vectors at an index adds the words. -/
theorem addi_apply (a c : IVec S3200000 32) (i : S3200000.Idx) : addi a c i = IntOp.addi (a i) (c i) := rfl

/-- The wrapped source word of edge `e`. -/
theorem srcWrapped_apply (ei : IVec S2x3200000 32) (e : Fin 3200000) : srcWrapped ei (ix1 e) = wrapWord (srcWord ei e) := by
  unfold srcWrapped wrapWord
  rw [select_apply, cmpi_apply, addi_apply, constE_apply, constE_apply, srcOf_apply]

/-- The wrapped source words as the column a gather reads. -/
theorem srcCol_apply (ei : IVec S2x3200000 32) (e : Fin 3200000) :
    broadcastInDim S3200000x1 ![0] bcast_S3200000_S3200000x1_0 (srcWrapped ei) (ix2 e 0) = wrapWord (srcWord ei e) := by
  refine (broadcastInDim_apply _ bcast_S3200000_S3200000x1_0 (srcWrapped ei) (ix2 e 0) (ix1 e) (fun a => match a with
    | ⟨0, _⟩ => by show e.val = if (3200000 : Nat) = 1 then 0 else e.val; rw [if_neg (by decide)])).trans ?_
  exact srcWrapped_apply ei e

/-- The message of edge `e`: the normalised feature at the node its source word names. -/
theorem messages_apply (ei : IVec S2x3200000 32) (x : FVec Ideal S100000x256 .f32) (w : FVec Ideal S256x1 .f32) (e : Fin 3200000) :
    messages (F := Ideal) ei (Cert.KernelIdeal.ProjValue.proj x w) (ix1 e)
      = nrmK ei (rowOf (srcWord ei e)) * featAt x w (rowOf (srcWord ei e)) := by
  unfold messages
  rw [gather_apply, srcCol_apply, mulf_apply]
  unfold rowOf
  rw [normVec_apply, projVec_apply]

/-! ## The aggregate, the bias, softplus -/

/-- The messages summed into node `j`. -/
theorem edgeSum_apply (ei : IVec S2x3200000 32) (x : FVec Ideal S100000x256 .f32) (w : FVec Ideal S256x1 .f32) (j : Fin 100000) :
    edgeSum (F := Ideal) ei (Cert.KernelIdeal.ProjValue.proj x w) (ix1 j)
      = zero32 + ∑ e : Fin 3200000,
          if (dstWord ei e).toInt = (j.val : ℤ) then nrmK ei (rowOf (srcWord ei e)) * featAt x w (rowOf (srcWord ei e)) else 0 := by
  unfold edgeSum
  rw [scatter_apply, zerosN_apply]
  simp only [dstCol_apply, messages_apply]

/-- The aggregate at node `j`. -/
theorem aggregate_apply (ei : IVec S2x3200000 32) (x : FVec Ideal S100000x256 .f32) (w : FVec Ideal S256x1 .f32) (j : Fin 100000) :
    aggregate (F := Ideal) ei (Cert.KernelIdeal.ProjValue.proj x w) (ix1 j) = aggK ei x w j := by
  unfold aggregate aggK
  rw [addf_apply, mulf_apply, mulf_apply, mulf_apply, normVec_apply, edgeSum_apply, projVec_apply]

/-- The bias, reshaped to a scalar and broadcast, reads the bias's one entry at every node. -/
theorem bias_apply (b : FVec Ideal S1 .f32) (i : S100000.Idx) :
    broadcastInDim S100000 ![] bcast_S_S100000 (shapeCast S_ b shapeCasts_S1_S_) i = b (ix1 0) := by
  refine (broadcastInDim_apply _ bcast_S_S100000 _ i ix0 (fun a => a.elim0)).trans ?_
  refine shapeCast_apply b shapeCasts_S1_S_ ix0 (ix1 0) ?_
  rewrite [Shape.rowMajor_val_one]
  exact (Shape.rowMajorPi_zero _ _).symm

/-- The aggregate with the bias added, at node `j`. -/
theorem biased_apply (ei : IVec S2x3200000 32) (x : FVec Ideal S100000x256 .f32) (w : FVec Ideal S256x1 .f32) (b : FVec Ideal S1 .f32)
    (j : Fin 100000) :
    biased (F := Ideal) ei (Cert.KernelIdeal.ProjValue.proj x w) b (ix1 j) = aggK ei x w j + b (ix1 0) := by
  unfold biased
  rw [addf_apply, aggregate_apply, bias_apply]

/-- Softplus of a vector at an index is the scalar epilogue of the elements. -/
theorem softplusVec_apply (z a : FVec Ideal S100000 .f32) (i : S100000.Idx) : softplusVec z a i = epilogue (z i) (a i) := rfl

/-- THE KERNEL PROGRAM AT NODE `r`: its result column's entry `(r, 0)`, computed from the projection of the features, is
    `outK` of the arguments. -/
theorem tailOf_apply (ei : IVec S2x3200000 32) (x : FVec Ideal S100000x256 .f32) (w : FVec Ideal S256x1 .f32) (b : FVec Ideal S1 .f32)
    (r : Fin 100000) :
    tailOf ei (Cert.KernelIdeal.ProjValue.proj x w) b (ix2 r 0) = outK ei x w b r := by
  unfold tailOf outK
  refine (broadcastInDim_apply _ bcast_S100000_S100000x1_0 _ (ix2 r 0) (ix1 r) (fun a => match a with
    | ⟨0, _⟩ => by show r.val = if (100000 : Nat) = 1 then 0 else r.val; rw [if_neg (by decide)])).trans ?_
  rw [softplusVec_apply, zerosN_apply, biased_apply]

end Cert.KernelIdeal.NodeRead

end
-- ==== Proof.FiniteInputs.lean ====
/-
  From the precondition to real inputs. The precondition states that
  all(|x| < +inf) and all(|W| < +inf) and all(|b| < +inf) evaluates to 1 on every device. Read at the
  ideal instance, where a float is an extended real, |a| is max a (-a) and the comparison is the strict
  order of the extended reals: max a (-a) < ⊤ excludes a = ⊤ and a = ⊥, so every entry of x and of W is
  the coercion of a real number.
-/
import proofs.«150326_j16630113370940_2_alg».proof.Defs
import proofs.«150326_j16630113370940_2_alg».proof.Proof.Gen.Pre_finite_inputs
import Idealize.ShloMosaic.Lib.ReduceAll
import Idealize.ShloMosaic.Lib.ValueIdx
import Idealize.ShloMosaic.PureOps.Ideal

noncomputable section

namespace Cert.KernelIdeal.FiniteInputs

open Idealize.ShloMosaic Idealize.SL.Sem
open Cert.KernelIdeal

/-- The f32 word 0x7F800000 (sign 0, exponent all ones, fraction 0) denotes +∞. -/
theorem inf_word : Ideal.ofBits .f32 0x7F800000#32 = (⊤ : EReal) := by
  simp [Ideal.ofBits, Ideal.ieee]

/-- An extended real a with max a (-a) < ⊤ is a real: at a = ⊤ the maximum is ⊤, at a = ⊥ it is -⊥ = ⊤. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- The comparison bit of a < b on extended reals is 1 exactly when a < b. -/
theorem lt_of_cmp_olt (a b : EReal) (h : Ideal.cmp .olt a b = 1#1) : a < b := by
  unfold Ideal.cmp at h
  by_contra hn
  simp [hn] at h

/-- One entry, for any shape: if the comparison |x| < broadcast(+inf) is 1 at index i, the entry x i is a real. -/
theorem entry_real (S : Shape) (hb : Cert.Pre_finite_inputs.S_.BroadcastsInDim S (![] : Fin 0 → Fin S.rank))
    (x : FVec Ideal S .f32) (i : S.Idx)
    (h : cmpf .olt (Host.absf x)
      (broadcastInDim S ![] hb (constant (F := Ideal) Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [inf_word] at h'
  exact real_of_abs_lt_top (x i) (lt_of_cmp_olt _ _ h')

/-- The rank-0 shape has exactly one index. -/
instance : Subsingleton Cert.Pre_finite_inputs.S_.Idx := ⟨fun a b => funext fun d => d.elim0⟩

/-- The precondition is a conjunction of three "and"-reductions over all axes that equals 1; so each conjunct is 1,
    so each compared element is 1, so every entry of x and every entry of W is a real. -/
theorem pre_split [hPre : Cert.Pre_finite_inputs.Facts] (m : (ℓ : Loc nD τ sig) → Buf (Elt Ideal) ℓ)
    (hpre : Cert.Pre_KernelIdeal m) (c : Dev nD) :
    (∀ i : S100000x256.Idx, ∃ r : ℝ, m ((c.tc : Thread nD τ).loc main_arg0) i = (r : EReal))
    ∧ (∀ i : S256x1.Idx, ∃ r : ℝ, m ((c.tc : Thread nD τ).loc main_arg2) i = (r : EReal)) := by
  have h := congrFun (hpre c) ValueIdx.ix0
  unfold Cert.Pre_finite_inputs.fn at h
  dsimp only at h
  obtain ⟨h01, -⟩ := IntOp.andi_eq_one.1 h
  obtain ⟨h0, h2⟩ := IntOp.andi_eq_one.1 h01
  refine ⟨fun i => ?_, fun i => ?_⟩
  · exact entry_real _ _ _ i (Host.reduce_andi_all _ _ _ _ _ h0 i)
  · exact entry_real _ _ _ i (Host.reduce_andi_all _ _ _ _ _ h2 i)

/-- Every entry of x is a real number. -/
theorem x_real [hPre : Cert.Pre_finite_inputs.Facts] (m : (ℓ : Loc nD τ sig) → Buf (Elt Ideal) ℓ)
    (hpre : Cert.Pre_KernelIdeal m) (c : Dev nD) (i : S100000x256.Idx) :
    ∃ r : ℝ, m ((c.tc : Thread nD τ).loc main_arg0) i = (r : EReal) :=
  (pre_split m hpre c).1 i

/-- Every entry of W is a real number. -/
theorem w_real [hPre : Cert.Pre_finite_inputs.Facts] (m : (ℓ : Loc nD τ sig) → Buf (Elt Ideal) ℓ)
    (hpre : Cert.Pre_KernelIdeal m) (c : Dev nD) (i : S256x1.Idx) :
    ∃ r : ℝ, m ((c.tc : Thread nD τ).loc main_arg2) i = (r : EReal) :=
  (pre_split m hpre c).2 i

end Cert.KernelIdeal.FiniteInputs

end
-- ==== Proof.Bridge.lean ====
/-
  The two per-node expressions agree.

  The reference's edge list is the kernel's with one self-loop per node appended, so a sum over it is the sum over the real
  edges plus the sum over the nodes. A self-loop's word is a node's own number: as a signed 32-bit word it reads back as that
  number, is not negative, so is not wrapped, and clamps to itself. A real edge into node `j` has a target word whose signed
  value is `j`, so the node a gather reads for that word is `j` too. With these the degrees agree by associativity, hence the
  normalisers, and the aggregates agree by the aggregation law, whose hypotheses are that the normaliser and the projected
  feature are real: the first holds for any degree (the guard), the second because the features and weights are real.
-/
import proofs.«150326_j16630113370940_2_alg».proof.Proof.NodeForm
import Idealize.ShloMosaic.PureOps.Ideal.Laws

noncomputable section

open scoped BigOperators

namespace Cert.GcnForm

open Idealize.ShloMosaic Idealize.ShloMosaic.ValueIdx Cert.GcnLaw Cert.RowIndexOps

theorem zero32_eq : zero32 = 0 := Ideal.ofBits_zero_f32

/-! ## Words -/

/-- A node's number, written as a 32-bit word, reads back signed as itself. -/
theorem toInt_ofNat_node (i : Fin 100000) : (BitVec.ofNat 32 i.val).toInt = (i.val : ℤ) := by
  have hi := i.isLt
  rw [BitVec.toInt_eq_toNat_cond, BitVec.toNat_ofNat, Nat.mod_eq_of_lt (by omega), if_pos (by omega)]

/-- A word that is not negative is not wrapped. -/
theorem wrapWord_of_nonneg (v : BitVec 32) (h : 0 ≤ v.toInt) : wrapWord v = v := by
  unfold wrapWord IntOp.cmpi
  have hs : v.slt 0#32 = false := by
    rw [BitVec.slt_eq_decide]
    simpa using h
  simp only [hs]
  exact select_zero _ _

/-- The node a gather reads for a word whose signed value is node `j`'s number is `j`. -/
theorem rowOf_of_toInt (v : BitVec 32) (j : Fin 100000) (h : v.toInt = (j.val : ℤ)) : rowOf v = j := by
  have hj := j.isLt
  unfold rowOf
  rw [wrapWord_of_nonneg v (by omega)]
  apply Fin.ext
  show min v.toInt.toNat (100000 - 1) = j.val
  rw [h, Int.toNat_natCast]
  omega

/-- The node a gather reads for a node's own number is that node. -/
theorem rowOf_ofNat (i : Fin 100000) : rowOf (BitVec.ofNat 32 i.val) = i := rowOf_of_toInt _ i (toInt_ofNat_node i)

/-! ## The appended edge list -/

/-- A sum over the real edges and the self-loops is the sum over the real edges plus the sum over the nodes. -/
theorem sum_edges_and_loops (f : Fin 3300000 → EReal) :
    ∑ e, f e = (∑ e : Fin 3200000, f ⟨e.val, by omega⟩) + ∑ i : Fin 100000, f ⟨3200000 + i.val, by omega⟩ :=
  Fin.sum_univ_add (a := 3200000) (b := 100000) f

theorem srcWord'_edge (ei : Edges) (e : Fin 3200000) : srcWord' ei ⟨e.val, by omega⟩ = srcWord ei e := by
  unfold srcWord'; rw [dif_pos e.isLt]
theorem dstWord'_edge (ei : Edges) (e : Fin 3200000) : dstWord' ei ⟨e.val, by omega⟩ = dstWord ei e := by
  unfold dstWord'; rw [dif_pos e.isLt]
theorem srcWord'_loop (ei : Edges) (i : Fin 100000) : srcWord' ei ⟨3200000 + i.val, by omega⟩ = BitVec.ofNat 32 i.val := by
  unfold srcWord'; rw [dif_neg (by simp)]; simp
theorem dstWord'_loop (ei : Edges) (i : Fin 100000) : dstWord' ei ⟨3200000 + i.val, by omega⟩ = BitVec.ofNat 32 i.val := by
  unfold dstWord'; rw [dif_neg (by simp)]; simp

/-! ## Degrees, normalisers, aggregates -/

theorem degR_eq (ei : Edges) (j : Fin 100000) : degR ei j = degK ei j := by
  unfold degR degK
  rw [sum_edges_and_loops]
  simp only [dstWord'_edge, dstWord'_loop, toInt_ofNat_node]
  exact (degree_law (fun e => (dstWord ei e).toInt) one32 zero32 j).symm

theorem nrmR_eq (ei : Edges) (j : Fin 100000) : nrmR ei j = nrmK ei j := by
  unfold nrmR nrmK; rw [degR_eq]

/-- The normaliser is a real number at every node. -/
theorem nrmK_real (ei : Edges) (j : Fin 100000) : ∃ r : ℝ, nrmK ei j = (r : EReal) := by
  unfold nrmK; rw [zero32_eq]; exact normOf_zero_real _

/-- The projected feature is a real number when the features and the weights are. -/
theorem featAt_real (x : Feats) (w : Weights) (hx : ∀ i, ∃ r : ℝ, x i = (r : EReal)) (hw : ∀ i, ∃ r : ℝ, w i = (r : EReal))
    (j : Fin 100000) : ∃ r : ℝ, featAt x w j = (r : EReal) := by
  choose xr hxr using hx
  choose wr hwr using hw
  refine ⟨∑ k : Fin 256, xr (ix2 j k) * wr (ix2 k 0), ?_⟩
  unfold featAt
  rw [coe_sum]
  refine Finset.sum_congr rfl (fun k _ => ?_)
  rw [hxr, hwr, EReal.coe_mul]

theorem agg_eq (ei : Edges) (x : Feats) (w : Weights) (hx : ∀ i, ∃ r : ℝ, x i = (r : EReal)) (hw : ∀ i, ∃ r : ℝ, w i = (r : EReal))
    (j : Fin 100000) : aggK ei x w j = aggR ei x w j := by
  unfold aggK aggR
  rw [sum_edges_and_loops]
  simp only [dstWord'_edge, srcWord'_edge, dstWord'_loop, srcWord'_loop, toInt_ofNat_node, rowOf_ofNat, nrmR_eq, zero32_eq]
  exact aggregate_law (fun e => (dstWord ei e).toInt) (fun e => rowOf (srcWord ei e)) (fun e => rowOf (dstWord ei e))
    (nrmK ei) (featAt x w) (nrmK_real ei) (featAt_real x w hx hw) j (fun e he => rowOf_of_toInt _ j he)

/-- THE TWO EXPRESSIONS AGREE at every node, for real features and weights (the bias may be anything: both add it last). -/
theorem out_eq (ei : Edges) (x : Feats) (w : Weights) (b : Bias) (hx : ∀ i, ∃ r : ℝ, x i = (r : EReal))
    (hw : ∀ i, ∃ r : ℝ, w i = (r : EReal)) (j : Fin 100000) : outK ei x w b j = outR ei x w b j := by
  unfold outK outR
  rw [agg_eq ei x w hx hw j]

end Cert.GcnForm

end
-- ==== Proof.lean ====
/-
  A graph-convolution layer with one output channel, followed by softplus: the kernel against its jnp reference, over the
  extended reals.

  Both programs compute, for every node `j`, softplus of (aggregate at `j` + bias), where with `h = x · W` the projected
  features, `deg` the number of edges into a node counting its self-loop, and `nrm = 1/√deg` (guarded at zero):
    reference:  aggregate[j] = Σ over all edges e into j, self-loops included, of  nrm[src e] · nrm[tgt e] · h[src e]
    kernel:     aggregate[j] = nrm[j] · (Σ over the real edges e into j of nrm[src e] · h[src e])  +  nrm[j] · nrm[j] · h[j].
  The kernel's region computes `h` block by block (a matrix product into a zero accumulator, the format changes the identity
  here); everything after it is host arithmetic in both programs. The edge list is any array of 32-bit words: a gather reads a
  word wrapped once and clamped, a scatter reads it signed and drops what is out of range, the same in both programs.
  The two aggregates agree because a real factor distributes over a finite sum of reals; that is where the precondition
  (finite features and weights) is used. The degree is a count and agrees by associativity; the bias and softplus are applied
  last by both.
  Modules: Spec (the law), NodeForm (each program's value at one node as a closed expression), Bridge (the two expressions
  agree), LibIndexOps (gathers and accumulating scatters read at an index), ProjValue (the region's output array),
  KernelTail and KernelNodeRead (the kernel's host operations, and their result at a node), RefRunPatched, RefReadPatched and
  RefNodeRead (the reference's run, and its result at a node), FiniteInputs (the precondition read as: every entry is real).
-/
import proofs.«150326_j16630113370940_2_alg».proof.Defs
import proofs.«150326_j16630113370940_2_alg».proof.Proof.Gen.Kernel
import proofs.«150326_j16630113370940_2_alg».proof.Proof.Gen.Kernel.Skeleton
import proofs.«150326_j16630113370940_2_alg».proof.Proof.Gen.Kernel.Launch
import proofs.«150326_j16630113370940_2_alg».proof.Proof.Gen.Kernel.Points
import proofs.«150326_j16630113370940_2_alg».proof.Proof.Gen.Kernel.Frame
import proofs.«150326_j16630113370940_2_alg».proof.Proof.Gen.KernelIdeal
import proofs.«150326_j16630113370940_2_alg».proof.Proof.Gen.KernelIdeal.Skeleton
import proofs.«150326_j16630113370940_2_alg».proof.Proof.Gen.KernelIdeal.Launch
import proofs.«150326_j16630113370940_2_alg».proof.Proof.Gen.KernelIdeal.Points
import proofs.«150326_j16630113370940_2_alg».proof.Proof.Gen.KernelIdeal.Frame
import proofs.«150326_j16630113370940_2_alg».proof.Proof.Gen.ReferenceIdeal
import proofs.«150326_j16630113370940_2_alg».proof.Proof.Gen.Pre_finite_inputs
import proofs.«150326_j16630113370940_2_alg».proof.Proof.RefRunPatched
import proofs.«150326_j16630113370940_2_alg».proof.Proof.RefReadPatched
import proofs.«150326_j16630113370940_2_alg».proof.Proof.RefNodeRead
import proofs.«150326_j16630113370940_2_alg».proof.Proof.KernelTail
import proofs.«150326_j16630113370940_2_alg».proof.Proof.KernelNodeRead
import proofs.«150326_j16630113370940_2_alg».proof.Proof.ProjValue
import proofs.«150326_j16630113370940_2_alg».proof.Proof.FiniteInputs
import proofs.«150326_j16630113370940_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and keeps its arguments: the generated frame. -/
theorem frame_p : Cert.frame_Kernel := fun m ρ _ => Cert.Kernel.Gen.frame m ρ
/-- So does the idealized kernel. -/
theorem frame_pi : Cert.frame_KernelIdeal := fun m ρ _ => Cert.KernelIdeal.Gen.frame m ρ
/-- The reference has no region: its frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

open Cert.KernelIdeal Cert.KernelIdeal.Gen in
/-- The idealized kernel's run, with its result named: the region's output is the projection, and the host operations after
    it compute `tailOf` of it; the arguments end as launched (the generated frame's reading of the same run). -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
          = Cert.KernelIdeal.Tail.tailOf (m ((c.tc : Thread nD τ).loc main_arg1))
              (Cert.KernelIdeal.ProjValue.proj (m ((c.tc : Thread nD τ).loc main_arg0)) (m ((c.tc : Thread nD τ).loc main_arg2)))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v35 (Pipeline.mem_restRefs_of main_v35 (by decide) (by decide))).trans
        ((Cert.KernelIdeal.Tail.tail_eq m c).trans (by rw [Cert.KernelIdeal.ProjValue.final m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main (F := Ideal) m ρ)

/-- Both idealized programs, from memories agreeing on the arguments, end with the same result: at every node both hold the
    per-node expression of NodeForm (KernelNodeRead, RefNodeRead), and the two expressions agree for real features and weights
    (Bridge), which the precondition gives (FiniteInputs). -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2.1, (hagree c).2.2.2]
  funext i
  obtain ⟨r, q, rfl⟩ : ∃ (r : Fin 100000) (q : Fin 1), i = ix2 r q := ⟨i 0, i 1, eq_ix2 i⟩
  obtain rfl : q = 0 := Subsingleton.elim _ _
  rw [Cert.ReferenceIdeal.NodeRead.ref_apply, Cert.KernelIdeal.NodeRead.tailOf_apply]
  exact (Cert.GcnForm.out_eq _ _ _ _ (Cert.KernelIdeal.FiniteInputs.x_real m hpre c) (Cert.KernelIdeal.FiniteInputs.w_real m hpre c) r).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
